-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S192x1 : Shape := ⟨2, ![192, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S192x1 : S_.BroadcastsInDim S192x1 (![] : Fin 0 → Fin S192x1.rank)
  reducesTo_S192x1_S_d0_1 : S192x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S192x1 .f32) (main_arg13 : FVec F S1 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x1 .f32 := Host.absf main_arg12
  let main_cst_20 : FVec F S_ .f32 := constant S_ .f32 0x7F800000#32
  let main_v55 : FVec F S192x1 .f32 := broadcastInDim S192x1 ![] bcast_S_S192x1 main_cst_20
  let main_v56 : IVec S192x1 1 := cmpf .olt main_v54 main_v55
  let main_c_21 : IVec S_ 1 := constantI S_ 1 1#1
  let main_v57 : IVec S_ 1 := (fun x v => Host.reduce IntOp.andi x v reducesTo_S192x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x192 .f32) (main_arg11 : FVec F S192 .f32) (main_arg12 : FVec F S192x1 .f32) (main_arg13 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x192 .f32 := Host.absf main_arg10
  let main_cst_16 : FVec F S_ .f32 := constant S_ .f32 0x7F800000#32
  let main_v45 : FVec F S64x192 .f32 := broadcastInDim S64x192 ![] bcast_S_S64x192 main_cst_16
  let main_v46 : IVec S64x192 1 := cmpf .olt main_v44 main_v45
  let main_c_17 : IVec S_ 1 := constantI S_ 1 1#1
  let main_v47 : IVec S_ 1 := (fun x v => Host.reduce IntOp.andi x v reducesTo_S64x192_S_d0_1 h_S_) main_v46 main_c_17
  let main_v48 : IVec S_ 1 := andi main_v43 main_v47
  let main_v49 : FVec F S192 .f32 := Host.absf main_arg11
  let main_cst_18 : FVec F S_ .f32 := constant S_ .f32 0x7F800000#32
  let main_v50 : FVec F S192 .f32 := broadcastInDim S192 ![] bcast_S_S192 main_cst_18
  fn_part3 (F := F) main_arg12 main_arg13 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64x192 .f32) (main_arg11 : FVec F S192 .f32) (main_arg12 : FVec F S192x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x3200000 32) (main_arg2 : FVec F S64x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64x192 .f32) (main_arg11 : FVec F S192 .f32) (main_arg12 : FVec F S192x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S192x1 : Shape := ⟨2, ![192, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S1x192 : Shape := ⟨2, ![1, 192]⟩
abbrev S1x1 : Shape := ⟨2, ![1, 1]⟩
abbrev S100000x1 : Shape := ⟨2, ![100000, 1]⟩
abbrev S5000x64 : Shape := ⟨2, ![5000, 64]⟩
abbrev S5000x1 : Shape := ⟨2, ![5000, 1]⟩
abbrev S5000x192 : Shape := ⟨2, ![5000, 192]⟩

abbrev nBuf : Space → Nat
  | .hbm => 40
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x192, .f32⟩
  | .hbm, ⟨11, _⟩ => ⟨S192, .f32⟩
  | .hbm, ⟨12, _⟩ => ⟨S192x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x64, .f32⟩
  | .hbm, ⟨27, _⟩ => ⟨S_, .f32⟩
  | .hbm, ⟨28, _⟩ => ⟨S100000x64, .f32⟩
  | .hbm, ⟨29, _⟩ => ⟨S3200000x1, .i32⟩
  | .hbm, ⟨30, _⟩ => ⟨S100000x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x192, .f32⟩
  | .hbm, ⟨38, _⟩ => ⟨S1x1, .f32⟩
  | .hbm, ⟨39, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x192, .f32⟩
  | .local _ .vmem, ⟨13, _⟩ => ⟨S1x192, .f32⟩
  | .local _ .vmem, ⟨14, _⟩ => ⟨S192x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  shapeCasts_S64_S1x64 : S64.ShapeCasts S1x64
  shapeCasts_S192_S1x192 : S192.ShapeCasts S1x192
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x192_S64x192_0_0 : ∀ a, (![0, 0] : Fin 2 → Nat) a + S64x192.size a ≤ S64x192.size a
  h_S64x192 : 0 < S64x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S192x1_S192x1_0_0 : ∀ a, (![0, 0] : Fin 2 → Nat) a + S192x1.size a ≤ S192x1.size a
  h_S192x1 : 0 < S192x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x192_S5000x192_1_0_0_1_n_n_wf : DotDims.WF S5000x64 S64x192 S5000x192 [1] [0] [0] [1] [] []
  dot_S5000x192_S192x1_S5000x1_1_0_0_1_n_n_wf : DotDims.WF S5000x192 S192x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x192.size a ≤ S64x192.size a
  hwx0_10 : ∀ i : grid0.Coords, EltTy.bits .f32 = 32 ∨ (Rect.block (s := S64x192) S64x192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x192.size a ≤ S1x192.size a
  hwx0_11 : ∀ i : grid0.Coords, EltTy.bits .f32 = 32 ∨ (Rect.block (s := S1x192) S1x192.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S192x1.size a ≤ S192x1.size a
  hwx0_12 : ∀ i : grid0.Coords, EltTy.bits .f32 = 32 ∨ (Rect.block (s := S192x1) S192x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x1.size a ≤ S100000x1.size a
  hwx0_14 : ∀ i : grid0.Coords, EltTy.bits .f32 = 32 ∨ (Rect.block (s := S100000x1) S5000x1.size (cc0_transform_14 i) (hinb0_14 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S5000x192_S192x1_S5000x1_1_0_0_1_n_n : DotDims S5000x192 S192x1 S5000x1 where
  lhsContracting := [1]
  rhsContracting := [0]
  lhsNonContracting := [0]
  rhsNonContracting := [1]
  lhsBatch := []
  rhsBatch := []
  wf := dot_S5000x192_S192x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S192x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S5000x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S192x1 : Shape := ⟨2, ![192, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S100000x192 : Shape := ⟨2, ![100000, 192]⟩
abbrev S1x192 : Shape := ⟨2, ![1, 192]⟩
abbrev S100000x1 : Shape := ⟨2, ![100000, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x192, .f32⟩
  | .hbm, ⟨11, _⟩ => ⟨S192, .f32⟩
  | .hbm, ⟨12, _⟩ => ⟨S192x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x64, .f32⟩
  | .hbm, ⟨27, _⟩ => ⟨S_, .f32⟩
  | .hbm, ⟨28, _⟩ => ⟨S100000x64, .f32⟩
  | .hbm, ⟨29, _⟩ => ⟨S3200000x1, .i32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x192, .f32⟩
  | .hbm, ⟨63, _⟩ => ⟨S1x192, .f32⟩
  | .hbm, ⟨64, _⟩ => ⟨S100000x192, .f32⟩
  | .hbm, ⟨65, _⟩ => ⟨S100000x192, .f32⟩
  | .hbm, ⟨66, _⟩ => ⟨S_, .f32⟩
  | .hbm, ⟨67, _⟩ => ⟨S100000x192, .f32⟩
  | .hbm, ⟨68, _⟩ => ⟨S100000x192, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  bcast_S_S100000x192 : S_.BroadcastsInDim S100000x192 (![] : Fin 0 → Fin S100000x192.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x192_S100000x192_1_0_0_1_n_n_wf : DotDims.WF S100000x64 S64x192 S100000x192 [1] [0] [0] [1] [] []
  dot_S100000x192_S192x1_S100000x1_1_0_0_1_n_n_wf : DotDims.WF S100000x192 S192x1 S100000x1 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x192_S192x1_S100000x1_1_0_0_1_n_n : DotDims S100000x192 S192x1 S100000x1 where
  lhsContracting := [1]
  rhsContracting := [0]
  lhsNonContracting := [0]
  rhsNonContracting := [1]
  lhsBatch := []
  rhsBatch := []
  wf := dot_S100000x192_S192x1_S100000x1_1_0_0_1_n_n_wf

class Facts : Prop extends Facts₀ where

variable [Facts]
-- ==== Proof.HostArrays.lean ====
/-
  What the kernel's region finds in the arrays the host wrote before launching it.

  Eight of them are a bias or normalisation vector of length n recast as one row [1, n]. The ninth is the
  aggregated neighbour features: the features gathered along the edges' source nodes and summed into the edges'
  target nodes. The reference computes that array by the same host operations, in the same order, from the same
  two arguments, so it is stated here as the reference's own stage and never opened.
-/
import proofs.«161374_j1967095021811_1_alg».proof.Proof.Gen.KernelIdeal.Frame
import proofs.«161374_j1967095021811_1_alg».proof.Proof.Gen.ReferenceIdeal.Read
import Idealize.ShloMosaic.Lib.StableHlo.Run

noncomputable section

namespace Cert.KernelIdeal.HostArrays

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

set_option maxHeartbeats 1000000 in
/-- The aggregated neighbour features, as the region finds them: the reference's stage of the same name, of the
    node features and the edge list as launched. -/
theorem found_agg (c : Dev nD) : (V m c main_v13 : S100000x64.Idx → Elt F .f32)
    = Cert.ReferenceIdeal.Read.val_main_v13 (F := F) (m ((c : Thread nD τ).loc main_arg0)) (m ((c : Thread nD τ).loc main_arg1)) := by
  dsimp only [V, hostOps0]; after_results; rfl

/-- The vector `main_arg3` as one row. -/
theorem found_b1 (c : Dev nD) : (V m c main_v14 : S1x64.Idx → Elt F .f32) = shapeCast S1x64 (m ((c : Thread nD τ).loc main_arg3)) shapeCasts_S64_S1x64 := by
  dsimp only [V, hostOps0]; after_results; rfl

/-- The vector `main_arg4` as one row. -/
theorem found_gamma (c : Dev nD) : (V m c main_v15 : S1x64.Idx → Elt F .f32) = shapeCast S1x64 (m ((c : Thread nD τ).loc main_arg4)) shapeCasts_S64_S1x64 := by
  dsimp only [V, hostOps0]; after_results; rfl

/-- The vector `main_arg5` as one row. -/
theorem found_beta (c : Dev nD) : (V m c main_v16 : S1x64.Idx → Elt F .f32) = shapeCast S1x64 (m ((c : Thread nD τ).loc main_arg5)) shapeCasts_S64_S1x64 := by
  dsimp only [V, hostOps0]; after_results; rfl

/-- The vector `main_arg6` as one row. -/
theorem found_mean (c : Dev nD) : (V m c main_v17 : S1x64.Idx → Elt F .f32) = shapeCast S1x64 (m ((c : Thread nD τ).loc main_arg6)) shapeCasts_S64_S1x64 := by
  dsimp only [V, hostOps0]; after_results; rfl

/-- The vector `main_arg7` as one row. -/
theorem found_var (c : Dev nD) : (V m c main_v18 : S1x64.Idx → Elt F .f32) = shapeCast S1x64 (m ((c : Thread nD τ).loc main_arg7)) shapeCasts_S64_S1x64 := by
  dsimp only [V, hostOps0]; after_results; rfl

/-- The vector `main_arg9` as one row. -/
theorem found_b2 (c : Dev nD) : (V m c main_v19 : S1x64.Idx → Elt F .f32) = shapeCast S1x64 (m ((c : Thread nD τ).loc main_arg9)) shapeCasts_S64_S1x64 := by
  dsimp only [V, hostOps0]; after_results; rfl

/-- The vector `main_arg11` as one row. -/
theorem found_bl1 (c : Dev nD) : (V m c main_v20 : S1x192.Idx → Elt F .f32) = shapeCast S1x192 (m ((c : Thread nD τ).loc main_arg11)) shapeCasts_S192_S1x192 := by
  dsimp only [V, hostOps0]; after_results; rfl

/-- The vector `main_arg13` as one row. -/
theorem found_bl2 (c : Dev nD) : (V m c main_v21 : S1x1.Idx → Elt F .f32) = shapeCast S1x1 (m ((c : Thread nD τ).loc main_arg13)) shapeCasts_S1_S1x1 := by
  dsimp only [V, hostOps0]; after_results; rfl

end Cert.KernelIdeal.HostArrays

end
-- ==== Proof.Spec.lean ====
/-
  The function both programs compute, one node (one row) at a time, on the extended reals.

  A node's 64 input features `xr` and the sum `ar` of its in-neighbours' features are added and passed through
  four affine layers: 64 -> 64 followed by a per-feature normalisation (subtract `mu`, scale by
  `g * rsqrt (va + eps)`, add `be`) and a clamp at zero; 64 -> 64 and a clamp at zero; 64 -> 192 and a clamp at
  zero; 192 -> 1. The float literals stay as their words: the same word appears on both sides and is never
  evaluated.

  The two programs differ in one place only: one scales by `g * r`, the other multiplies by `r` and then by
  `g`. Multiplication of extended reals is commutative and associative, infinities included, so no finiteness
  of the inputs is needed (`scale_assoc`).
-/
import Idealize.ShloMosaic.PureOps.Ideal

noncomputable section

open scoped BigOperators

namespace Cert.GinHead

open Idealize.ShloMosaic

/-- Feature `j` after the first layer: the affine map of `xr + ar`, normalised, clamped at zero. -/
def hidden1 (xr ar : Fin 64 → EReal) (W1 : Fin 64 → Fin 64 → EReal) (b1 g be mu va : Fin 64 → EReal) (j : Fin 64) : EReal :=
  max ((((∑ k : Fin 64, (xr k + ar k) * W1 k j) + b1 j) - mu j)
      * (g j * Ideal.rsqrt (va j + Ideal.ofBits .f32 0x3727C5AC#32)) + be j) (Ideal.ofBits .f32 0x00000000#32)

/-- Feature `j` after the second layer. -/
def hidden2 (h1 : Fin 64 → EReal) (W2 : Fin 64 → Fin 64 → EReal) (b2 : Fin 64 → EReal) (j : Fin 64) : EReal :=
  max ((∑ k : Fin 64, h1 k * W2 k j) + b2 j) (Ideal.ofBits .f32 0x00000000#32)

/-- Feature `j` (of 192) after the third layer. -/
def hidden3 (h2 : Fin 64 → EReal) (Wl1 : Fin 64 → Fin 192 → EReal) (bl1 : Fin 192 → EReal) (j : Fin 192) : EReal :=
  max ((∑ k : Fin 64, h2 k * Wl1 k j) + bl1 j) (Ideal.ofBits .f32 0x00000000#32)

/-- The node's one output. -/
def head (h3 : Fin 192 → EReal) (Wl2 : Fin 192 → EReal) (bl2 : EReal) : EReal :=
  (∑ k : Fin 192, h3 k * Wl2 k) + bl2

/-- One node through the four layers. -/
def mlpRow (xr ar : Fin 64 → EReal) (W1 : Fin 64 → Fin 64 → EReal) (b1 g be mu va : Fin 64 → EReal)
    (W2 : Fin 64 → Fin 64 → EReal) (b2 : Fin 64 → EReal) (Wl1 : Fin 64 → Fin 192 → EReal) (bl1 : Fin 192 → EReal)
    (Wl2 : Fin 192 → EReal) (bl2 : EReal) : EReal :=
  head (hidden3 (hidden2 (hidden1 xr ar W1 b1 g be mu va) W2 b2) Wl1 bl1) Wl2 bl2

/-- Scaling by `r` and then by `g` is scaling by `g * r`, for all extended reals. -/
theorem scale_assoc (a r g : EReal) : a * r * g = a * (g * r) := by
  rw [mul_assoc, mul_comm r g]

end Cert.GinHead

end
-- ==== Proof.SpecArray.lean ====
/-
  The result array as one function of the argument arrays: entry (R, u) is `mlpRow` of row R of the node
  features `X` and of the aggregated neighbour features `A`, with the weight matrices and bias vectors read
  entry by entry. `A` is a parameter: both programs compute it by the same host operations from the features
  and the edge list, and nothing here looks inside it.
-/
import proofs.«161374_j1967095021811_1_alg».proof.Proof.Spec
import Idealize.ShloMosaic.Lib.ValueIdx

noncomputable section

namespace Cert.GinHead

open Idealize.ShloMosaic Idealize.ShloMosaic.ValueIdx

/-- Node `R`'s output (column `u` of one) from the whole arrays. -/
def outRow (X A : (⟨2, ![100000, 64]⟩ : Shape).Idx → EReal) (W1 : (⟨2, ![64, 64]⟩ : Shape).Idx → EReal)
    (b1 g be mu va : (⟨1, ![64]⟩ : Shape).Idx → EReal) (W2 : (⟨2, ![64, 64]⟩ : Shape).Idx → EReal)
    (b2 : (⟨1, ![64]⟩ : Shape).Idx → EReal) (Wl1 : (⟨2, ![64, 192]⟩ : Shape).Idx → EReal)
    (bl1 : (⟨1, ![192]⟩ : Shape).Idx → EReal) (Wl2 : (⟨2, ![192, 1]⟩ : Shape).Idx → EReal)
    (bl2 : (⟨1, ![1]⟩ : Shape).Idx → EReal) (R : Fin 100000) (u : Fin 1) : EReal :=
  mlpRow (fun a => X (ix2 R a)) (fun a => A (ix2 R a)) (fun a b => W1 (ix2 a b)) (fun b => b1 (ix1 b))
    (fun b => g (ix1 b)) (fun b => be (ix1 b)) (fun b => mu (ix1 b)) (fun b => va (ix1 b))
    (fun a b => W2 (ix2 a b)) (fun b => b2 (ix1 b)) (fun a b => Wl1 (ix2 a b)) (fun b => bl1 (ix1 b))
    (fun a => Wl2 (ix2 a u)) (bl2 (ix1 u))

/-- The [100000, 1] result array. -/
def outArr (X A : (⟨2, ![100000, 64]⟩ : Shape).Idx → EReal) (W1 : (⟨2, ![64, 64]⟩ : Shape).Idx → EReal)
    (b1 g be mu va : (⟨1, ![64]⟩ : Shape).Idx → EReal) (W2 : (⟨2, ![64, 64]⟩ : Shape).Idx → EReal)
    (b2 : (⟨1, ![64]⟩ : Shape).Idx → EReal) (Wl1 : (⟨2, ![64, 192]⟩ : Shape).Idx → EReal)
    (bl1 : (⟨1, ![192]⟩ : Shape).Idx → EReal) (Wl2 : (⟨2, ![192, 1]⟩ : Shape).Idx → EReal)
    (bl2 : (⟨1, ![1]⟩ : Shape).Idx → EReal) : (⟨2, ![100000, 1]⟩ : Shape).Idx → EReal :=
  fun i => outRow X A W1 b1 g be mu va W2 b2 Wl1 bl1 Wl2 bl2 (i 0) (i 1)

/-- At an index given by its coordinates the array is the row function. -/
theorem outArr_ix2 (X A : (⟨2, ![100000, 64]⟩ : Shape).Idx → EReal) (W1 : (⟨2, ![64, 64]⟩ : Shape).Idx → EReal)
    (b1 g be mu va : (⟨1, ![64]⟩ : Shape).Idx → EReal) (W2 : (⟨2, ![64, 64]⟩ : Shape).Idx → EReal)
    (b2 : (⟨1, ![64]⟩ : Shape).Idx → EReal) (Wl1 : (⟨2, ![64, 192]⟩ : Shape).Idx → EReal)
    (bl1 : (⟨1, ![192]⟩ : Shape).Idx → EReal) (Wl2 : (⟨2, ![192, 1]⟩ : Shape).Idx → EReal)
    (bl2 : (⟨1, ![1]⟩ : Shape).Idx → EReal) (R : Fin 100000) (u : Fin 1) :
    outArr X A W1 b1 g be mu va W2 b2 Wl1 bl1 Wl2 bl2 (ix2 R u) = outRow X A W1 b1 g be mu va W2 b2 Wl1 bl1 Wl2 bl2 R u := rfl

end Cert.GinHead

end
-- ==== Proof.KernelBlocks.lean ====
/-
  Each window's block at a grid point, as entries of the argument arrays.

  The grid has 20 points. At point t the two row-tiled windows (node features, aggregated neighbour features) hold
  rows 5000 t ... 5000 t + 4999 of their arrays; every weight matrix is staged whole at every point; every bias or
  normalisation vector is staged as the one row the host recast it to; and the output window's block sits at rows
  5000 t ... 5000 t + 4999 of the result. A block's coordinate on an axis is the block index times the block's
  extent plus the coordinate inside the block.
-/
import proofs.«161374_j1967095021811_1_alg».proof.Proof.Gen.KernelIdeal.Frame
import proofs.«161374_j1967095021811_1_alg».proof.Proof.HostArrays
import proofs.«161374_j1967095021811_1_alg».proof.Proof.SpecArray
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Cert.GinHead
open Idealize.ShloMosaic.Pipeline (Dat)

variable (m : (ℓ : Loc nD τ sig) → Buf (Elt Ideal) ℓ) (ρ : Dev nD → PrngReg)

/-! ## The windows' block indices, decided over the 20 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem point_lt (t : Fin cfg0.N) : t.val < 20 :=
  lt_of_lt_of_eq t.isLt (show cfg0.N = 20 from N_0)

/-! ## Each window's block at a point, as entries of the arguments -/

/-- Row r of window 0's block at point t is row 5000 t + r of the node features. -/
theorem blk0_apply (c : Dev nD) (t : Fin cfg0.N) (r : Fin 5000) (a : Fin 64) (R : Fin 100000)
    (hR : R.val = 5000 * t.val + r.val) :
    (iblk m c 0 t : Vec Ideal S5000x64 .f32) (ix2 r a) = (m ((c : Thread nD τ).loc main_arg0) : S100000x64.Idx → Elt Ideal .f32) (ix2 R a) := by
  obtain ⟨h0, h1⟩ := idx0 t
  unfold iblk
  rw [View.read_apply]
  show V m c main_arg0 _ = _
  rw [V_main_arg0 m c]
  refine congrArg (m ((c : Thread nD τ).loc main_arg0) : S100000x64.Idx → Elt Ideal .f32) (funext fun a' => Fin.ext ?_)
  match a' with
  | ⟨0, _⟩ => show win0_0.index t (0 : Fin 2) * 5000 + 1 * r.val = R.val; rw [h0, hR]; omega
  | ⟨1, _⟩ => show win0_0.index t (1 : Fin 2) * 64 + 1 * a.val = a.val; rw [h1]; omega

/-- Row r of window 1's block at point t, for ANY array standing in the window's place, is row 5000 t + r of it. -/
theorem rows1_read (t : Fin cfg0.N) (r : Fin 5000) (a : Fin 64) (R : Fin 100000)
    (hR : R.val = 5000 * t.val + r.val) (A : S100000x64.Idx → Elt Ideal .f32) :
    ((cfg0.win 1).blk t).view.read (Elt Ideal) A (ix2 r a) = A (ix2 R a) := by
  obtain ⟨h0, h1⟩ := idx1 t
  rw [View.read_apply]
  refine congrArg A (funext fun a' => Fin.ext ?_)
  match a' with
  | ⟨0, _⟩ => show win0_1.index t (0 : Fin 2) * 5000 + 1 * r.val = R.val; rw [h0, hR]; omega
  | ⟨1, _⟩ => show win0_1.index t (1 : Fin 2) * 64 + 1 * a.val = a.val; rw [h1]; omega

/-- The aggregated neighbour features as window 1's array finds them (the array named as the window names it). -/
theorem found_agg_win (c : Dev nD) : (V m c (Pipeline.arrRef spec0 (1 : Fin 15)) : S100000x64.Idx → Elt Ideal .f32) = (Cert.ReferenceIdeal.Read.val_main_v13 (F := Ideal) (m ((c : Thread nD τ).loc main_arg0)) (m ((c : Thread nD τ).loc main_arg1)) : S100000x64.Idx → Elt Ideal .f32) :=
  HostArrays.found_agg m c

/-- Row r of window 1's block at point t is row 5000 t + r of the aggregated neighbour features. -/
theorem blk1_apply (c : Dev nD) (t : Fin cfg0.N) (r : Fin 5000) (a : Fin 64) (R : Fin 100000)
    (hR : R.val = 5000 * t.val + r.val) :
    (iblk m c 1 t : Vec Ideal S5000x64 .f32) (ix2 r a) = (Cert.ReferenceIdeal.Read.val_main_v13 (F := Ideal) (m ((c : Thread nD τ).loc main_arg0)) (m ((c : Thread nD τ).loc main_arg1)) : S100000x64.Idx → Elt Ideal .f32) (ix2 R a) := by
  unfold iblk
  refine (rows1_read t r a R hR (V m c (Pipeline.arrRef spec0 (1 : Fin 15)))).trans ?_
  exact congrFun (found_agg_win m c) (ix2 R a)

/-- Window 2 holds the whole of `main_arg2` at every point. -/
theorem blk2_apply (c : Dev nD) (t : Fin cfg0.N) (a : Fin 64) (b : Fin 64) :
    (iblk m c 2 t : Vec Ideal S64x64 .f32) (ix2 a b) = (m ((c : Thread nD τ).loc main_arg2) : S64x64.Idx → Elt Ideal .f32) (ix2 a b) := by
  obtain ⟨h0, h1⟩ := idx2 t
  unfold iblk
  rw [View.read_apply]
  show V m c main_arg2 _ = _
  rw [V_main_arg2 m c]
  refine congrArg (m ((c : Thread nD τ).loc main_arg2) : S64x64.Idx → Elt Ideal .f32) (funext fun a' => Fin.ext ?_)
  match a' with
  | ⟨0, _⟩ => show win0_2.index t (0 : Fin 2) * 64 + 1 * a.val = a.val; rw [h0]; omega
  | ⟨1, _⟩ => show win0_2.index t (1 : Fin 2) * 64 + 1 * b.val = b.val; rw [h1]; omega

/-- Window 8 holds the whole of `main_arg8` at every point. -/
theorem blk8_apply (c : Dev nD) (t : Fin cfg0.N) (a : Fin 64) (b : Fin 64) :
    (iblk m c 8 t : Vec Ideal S64x64 .f32) (ix2 a b) = (m ((c : Thread nD τ).loc main_arg8) : S64x64.Idx → Elt Ideal .f32) (ix2 a b) := by
  obtain ⟨h0, h1⟩ := idx8 t
  unfold iblk
  rw [View.read_apply]
  show V m c main_arg8 _ = _
  rw [V_main_arg8 m c]
  refine congrArg (m ((c : Thread nD τ).loc main_arg8) : S64x64.Idx → Elt Ideal .f32) (funext fun a' => Fin.ext ?_)
  match a' with
  | ⟨0, _⟩ => show win0_8.index t (0 : Fin 2) * 64 + 1 * a.val = a.val; rw [h0]; omega
  | ⟨1, _⟩ => show win0_8.index t (1 : Fin 2) * 64 + 1 * b.val = b.val; rw [h1]; omega

/-- Window 10 holds the whole of `main_arg10` at every point. -/
theorem blk10_apply (c : Dev nD) (t : Fin cfg0.N) (a : Fin 64) (b : Fin 192) :
    (iblk m c 10 t : Vec Ideal S64x192 .f32) (ix2 a b) = (m ((c : Thread nD τ).loc main_arg10) : S64x192.Idx → Elt Ideal .f32) (ix2 a b) := by
  obtain ⟨h0, h1⟩ := idx10 t
  unfold iblk
  rw [View.read_apply]
  show V m c main_arg10 _ = _
  rw [V_main_arg10 m c]
  refine congrArg (m ((c : Thread nD τ).loc main_arg10) : S64x192.Idx → Elt Ideal .f32) (funext fun a' => Fin.ext ?_)
  match a' with
  | ⟨0, _⟩ => show win0_10.index t (0 : Fin 2) * 64 + 1 * a.val = a.val; rw [h0]; omega
  | ⟨1, _⟩ => show win0_10.index t (1 : Fin 2) * 192 + 1 * b.val = b.val; rw [h1]; omega

/-- Window 12 holds the whole of `main_arg12` at every point. -/
theorem blk12_apply (c : Dev nD) (t : Fin cfg0.N) (a : Fin 192) (b : Fin 1) :
    (iblk m c 12 t : Vec Ideal S192x1 .f32) (ix2 a b) = (m ((c : Thread nD τ).loc main_arg12) : S192x1.Idx → Elt Ideal .f32) (ix2 a b) := by
  obtain ⟨h0, h1⟩ := idx12 t
  unfold iblk
  rw [View.read_apply]
  show V m c main_arg12 _ = _
  rw [V_main_arg12 m c]
  refine congrArg (m ((c : Thread nD τ).loc main_arg12) : S192x1.Idx → Elt Ideal .f32) (funext fun a' => Fin.ext ?_)
  match a' with
  | ⟨0, _⟩ => show win0_12.index t (0 : Fin 2) * 192 + 1 * a.val = a.val; rw [h0]; omega
  | ⟨1, _⟩ => show win0_12.index t (1 : Fin 2) * 1 + 1 * b.val = b.val; rw [h1]; omega

/-- Window 3 holds `main_arg3` as one row at every point. -/
theorem blk3_apply (c : Dev nD) (t : Fin cfg0.N) (b : Fin 64) :
    (iblk m c 3 t : Vec Ideal S1x64 .f32) (ix2 (0 : Fin 1) b) = (m ((c : Thread nD τ).loc main_arg3) : S64.Idx → Elt Ideal .f32) (ix1 b) := by
  obtain ⟨h0, h1⟩ := idx3 t
  unfold iblk
  rw [View.read_apply]
  show V m c main_v14 _ = _
  rw [HostArrays.found_b1 m c]
  refine (congrArg (shapeCast S1x64 (m ((c : Thread nD τ).loc main_arg3) : S64.Idx → Elt Ideal .f32) shapeCasts_S64_S1x64) (?_ : _ = ix2 (0 : Fin 1) b)).trans
    (shapeCast_a_1a_apply _ _ (0 : Fin 1) b)
  funext a'
  apply Fin.ext
  match a' with
  | ⟨0, _⟩ => show win0_3.index t (0 : Fin 2) * 1 + 1 * 0 = 0; rw [h0]
  | ⟨1, _⟩ => show win0_3.index t (1 : Fin 2) * 64 + 1 * b.val = b.val; rw [h1]; omega

/-- Window 4 holds `main_arg4` as one row at every point. -/
theorem blk4_apply (c : Dev nD) (t : Fin cfg0.N) (b : Fin 64) :
    (iblk m c 4 t : Vec Ideal S1x64 .f32) (ix2 (0 : Fin 1) b) = (m ((c : Thread nD τ).loc main_arg4) : S64.Idx → Elt Ideal .f32) (ix1 b) := by
  obtain ⟨h0, h1⟩ := idx4 t
  unfold iblk
  rw [View.read_apply]
  show V m c main_v15 _ = _
  rw [HostArrays.found_gamma m c]
  refine (congrArg (shapeCast S1x64 (m ((c : Thread nD τ).loc main_arg4) : S64.Idx → Elt Ideal .f32) shapeCasts_S64_S1x64) (?_ : _ = ix2 (0 : Fin 1) b)).trans
    (shapeCast_a_1a_apply _ _ (0 : Fin 1) b)
  funext a'
  apply Fin.ext
  match a' with
  | ⟨0, _⟩ => show win0_4.index t (0 : Fin 2) * 1 + 1 * 0 = 0; rw [h0]
  | ⟨1, _⟩ => show win0_4.index t (1 : Fin 2) * 64 + 1 * b.val = b.val; rw [h1]; omega

/-- Window 5 holds `main_arg5` as one row at every point. -/
theorem blk5_apply (c : Dev nD) (t : Fin cfg0.N) (b : Fin 64) :
    (iblk m c 5 t : Vec Ideal S1x64 .f32) (ix2 (0 : Fin 1) b) = (m ((c : Thread nD τ).loc main_arg5) : S64.Idx → Elt Ideal .f32) (ix1 b) := by
  obtain ⟨h0, h1⟩ := idx5 t
  unfold iblk
  rw [View.read_apply]
  show V m c main_v16 _ = _
  rw [HostArrays.found_beta m c]
  refine (congrArg (shapeCast S1x64 (m ((c : Thread nD τ).loc main_arg5) : S64.Idx → Elt Ideal .f32) shapeCasts_S64_S1x64) (?_ : _ = ix2 (0 : Fin 1) b)).trans
    (shapeCast_a_1a_apply _ _ (0 : Fin 1) b)
  funext a'
  apply Fin.ext
  match a' with
  | ⟨0, _⟩ => show win0_5.index t (0 : Fin 2) * 1 + 1 * 0 = 0; rw [h0]
  | ⟨1, _⟩ => show win0_5.index t (1 : Fin 2) * 64 + 1 * b.val = b.val; rw [h1]; omega

/-- Window 6 holds `main_arg6` as one row at every point. -/
theorem blk6_apply (c : Dev nD) (t : Fin cfg0.N) (b : Fin 64) :
    (iblk m c 6 t : Vec Ideal S1x64 .f32) (ix2 (0 : Fin 1) b) = (m ((c : Thread nD τ).loc main_arg6) : S64.Idx → Elt Ideal .f32) (ix1 b) := by
  obtain ⟨h0, h1⟩ := idx6 t
  unfold iblk
  rw [View.read_apply]
  show V m c main_v17 _ = _
  rw [HostArrays.found_mean m c]
  refine (congrArg (shapeCast S1x64 (m ((c : Thread nD τ).loc main_arg6) : S64.Idx → Elt Ideal .f32) shapeCasts_S64_S1x64) (?_ : _ = ix2 (0 : Fin 1) b)).trans
    (shapeCast_a_1a_apply _ _ (0 : Fin 1) b)
  funext a'
  apply Fin.ext
  match a' with
  | ⟨0, _⟩ => show win0_6.index t (0 : Fin 2) * 1 + 1 * 0 = 0; rw [h0]
  | ⟨1, _⟩ => show win0_6.index t (1 : Fin 2) * 64 + 1 * b.val = b.val; rw [h1]; omega

/-- Window 7 holds `main_arg7` as one row at every point. -/
theorem blk7_apply (c : Dev nD) (t : Fin cfg0.N) (b : Fin 64) :
    (iblk m c 7 t : Vec Ideal S1x64 .f32) (ix2 (0 : Fin 1) b) = (m ((c : Thread nD τ).loc main_arg7) : S64.Idx → Elt Ideal .f32) (ix1 b) := by
  obtain ⟨h0, h1⟩ := idx7 t
  unfold iblk
  rw [View.read_apply]
  show V m c main_v18 _ = _
  rw [HostArrays.found_var m c]
  refine (congrArg (shapeCast S1x64 (m ((c : Thread nD τ).loc main_arg7) : S64.Idx → Elt Ideal .f32) shapeCasts_S64_S1x64) (?_ : _ = ix2 (0 : Fin 1) b)).trans
    (shapeCast_a_1a_apply _ _ (0 : Fin 1) b)
  funext a'
  apply Fin.ext
  match a' with
  | ⟨0, _⟩ => show win0_7.index t (0 : Fin 2) * 1 + 1 * 0 = 0; rw [h0]
  | ⟨1, _⟩ => show win0_7.index t (1 : Fin 2) * 64 + 1 * b.val = b.val; rw [h1]; omega

/-- Window 9 holds `main_arg9` as one row at every point. -/
theorem blk9_apply (c : Dev nD) (t : Fin cfg0.N) (b : Fin 64) :
    (iblk m c 9 t : Vec Ideal S1x64 .f32) (ix2 (0 : Fin 1) b) = (m ((c : Thread nD τ).loc main_arg9) : S64.Idx → Elt Ideal .f32) (ix1 b) := by
  obtain ⟨h0, h1⟩ := idx9 t
  unfold iblk
  rw [View.read_apply]
  show V m c main_v19 _ = _
  rw [HostArrays.found_b2 m c]
  refine (congrArg (shapeCast S1x64 (m ((c : Thread nD τ).loc main_arg9) : S64.Idx → Elt Ideal .f32) shapeCasts_S64_S1x64) (?_ : _ = ix2 (0 : Fin 1) b)).trans
    (shapeCast_a_1a_apply _ _ (0 : Fin 1) b)
  funext a'
  apply Fin.ext
  match a' with
  | ⟨0, _⟩ => show win0_9.index t (0 : Fin 2) * 1 + 1 * 0 = 0; rw [h0]
  | ⟨1, _⟩ => show win0_9.index t (1 : Fin 2) * 64 + 1 * b.val = b.val; rw [h1]; omega

/-- Window 11 holds `main_arg11` as one row at every point. -/
theorem blk11_apply (c : Dev nD) (t : Fin cfg0.N) (b : Fin 192) :
    (iblk m c 11 t : Vec Ideal S1x192 .f32) (ix2 (0 : Fin 1) b) = (m ((c : Thread nD τ).loc main_arg11) : S192.Idx → Elt Ideal .f32) (ix1 b) := by
  obtain ⟨h0, h1⟩ := idx11 t
  unfold iblk
  rw [View.read_apply]
  show V m c main_v20 _ = _
  rw [HostArrays.found_bl1 m c]
  refine (congrArg (shapeCast S1x192 (m ((c : Thread nD τ).loc main_arg11) : S192.Idx → Elt Ideal .f32) shapeCasts_S192_S1x192) (?_ : _ = ix2 (0 : Fin 1) b)).trans
    (shapeCast_a_1a_apply _ _ (0 : Fin 1) b)
  funext a'
  apply Fin.ext
  match a' with
  | ⟨0, _⟩ => show win0_11.index t (0 : Fin 2) * 1 + 1 * 0 = 0; rw [h0]
  | ⟨1, _⟩ => show win0_11.index t (1 : Fin 2) * 192 + 1 * b.val = b.val; rw [h1]; omega

/-- Window 13 holds `main_arg13` as one row at every point. -/
theorem blk13_apply (c : Dev nD) (t : Fin cfg0.N) (b : Fin 1) :
    (iblk m c 13 t : Vec Ideal S1x1 .f32) (ix2 (0 : Fin 1) b) = (m ((c : Thread nD τ).loc main_arg13) : S1.Idx → Elt Ideal .f32) (ix1 b) := by
  obtain ⟨h0, h1⟩ := idx13 t
  unfold iblk
  rw [View.read_apply]
  show V m c main_v21 _ = _
  rw [HostArrays.found_bl2 m c]
  refine (congrArg (shapeCast S1x1 (m ((c : Thread nD τ).loc main_arg13) : S1.Idx → Elt Ideal .f32) shapeCasts_S1_S1x1) (?_ : _ = ix2 (0 : Fin 1) b)).trans
    (shapeCast_a_1a_apply _ _ (0 : Fin 1) b)
  funext a'
  apply Fin.ext
  match a' with
  | ⟨0, _⟩ => show win0_13.index t (0 : Fin 2) * 1 + 1 * 0 = 0; rw [h0]
  | ⟨1, _⟩ => show win0_13.index t (1 : Fin 2) * 1 + 1 * b.val = b.val; rw [h1]; omega

/-- Entry (r, u) of the output window's block at point t sits at (5000 t + r, u) of the result array. -/
theorem out_emb (t : Fin cfg0.N) (r : Fin 5000) (u : Fin 1) (R : Fin 100000) (hR : R.val = 5000 * t.val + r.val) :
    ((cfg0.win 14).blk t).view.emb (ix2 r u) = (ix2 R u : S100000x1.Idx) := by
  obtain ⟨h0, h1⟩ := idx14 t
  funext a'
  apply Fin.ext
  match a' with
  | ⟨0, _⟩ => show win0_14.index t (0 : Fin 2) * 5000 + 1 * r.val = R.val; rw [h0, hR]; omega
  | ⟨1, _⟩ => show win0_14.index t (1 : Fin 2) * 1 + 1 * u.val = u.val; rw [h1]; omega

end Cert.KernelIdeal.Blocks

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.KernelRow.lean ====
/-
  One row of the kernel's block, read entry by entry on the extended reals.

  The body's stored value is a chain of four matrix products with a bias added after each; every product is
  taken into a zero accumulator, so an entry of it is the plain sum over the contracted axis (the three
  `prod_*` lemmas, one per shape of product). Roundings to the 16-bit format are the identity on extended reals,
  a [1, n] row broadcast down the block reads its one row, and the remaining operations act entry by entry.
  So entry (r, u) of the stored block depends on the blocks of the two row-tiled operands only through their
  row r, and is the specification's `mlpRow` of that row and of the weight blocks.
-/
import proofs.«161374_j1967095021811_1_alg».proof.Proof.Gen.KernelIdeal.Skeleton
import proofs.«161374_j1967095021811_1_alg».proof.Proof.Spec
import proofs.«161374_j1967095021811_1_alg».proof.Proof.LibMatmulPlain
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.GinHead

/-- A [5000, 64] by [64, 64] product into zero, at (r, j). -/
theorem prod_64_64 {φ₁ φ₂ : FTy} (h : FVec Ideal S5000x64 φ₁) (W : FVec Ideal S64x64 φ₂) (r : Fin 5000) (j : Fin 64) :
    FloatOps.matmul dot_S5000x64_S64x64_S5000x64_1_0_0_1_n_n none h W (constant (F := Ideal) S5000x64 .f32 0x00000000#32) (ix2 r j)
      = ∑ k : Fin 64, h (ix2 r k) * W (ix2 k j) :=
  MatmulPlain.matmul_zero_apply dot_S5000x64_S64x64_S5000x64_1_0_0_1_n_n none rfl rfl
    (fun j q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun j q => dot_S5000x64_S64x64_S5000x64_1_0_0_1_n_n.lhsIdx_val_of_single rfl j q)
    (fun j q => dot_S5000x64_S64x64_S5000x64_1_0_0_1_n_n.rhsIdx_val_of_single rfl j q)
    (fun j q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    h W r j

/-- A [5000, 64] by [64, 192] product into zero, at (r, j). -/
theorem prod_64_192 {φ₁ φ₂ : FTy} (h : FVec Ideal S5000x64 φ₁) (W : FVec Ideal S64x192 φ₂) (r : Fin 5000) (j : Fin 192) :
    FloatOps.matmul dot_S5000x64_S64x192_S5000x192_1_0_0_1_n_n none h W (constant (F := Ideal) S5000x192 .f32 0x00000000#32) (ix2 r j)
      = ∑ k : Fin 64, h (ix2 r k) * W (ix2 k j) :=
  MatmulPlain.matmul_zero_apply dot_S5000x64_S64x192_S5000x192_1_0_0_1_n_n none rfl rfl
    (fun j q => by
      unfold DotDims.lhsIdx
      rw [dif_neg (show ¬(0 : Fin S5000x64.rank) ∈ dot_S5000x64_S64x192_S5000x192_1_0_0_1_n_n.lhsBatch by decide), dif_pos (show (0 : Fin S5000x64.rank) ∈ dot_S5000x64_S64x192_S5000x192_1_0_0_1_n_n.lhsNonContracting by decide)]
      rfl)
    (fun j q => dot_S5000x64_S64x192_S5000x192_1_0_0_1_n_n.lhsIdx_val_of_single rfl j q)
    (fun j q => dot_S5000x64_S64x192_S5000x192_1_0_0_1_n_n.rhsIdx_val_of_single rfl j q)
    (fun j q => by
      unfold DotDims.rhsIdx
      rw [dif_neg (show ¬(1 : Fin S64x192.rank) ∈ dot_S5000x64_S64x192_S5000x192_1_0_0_1_n_n.rhsBatch by decide), dif_pos (show (1 : Fin S64x192.rank) ∈ dot_S5000x64_S64x192_S5000x192_1_0_0_1_n_n.rhsNonContracting by decide)]
      rfl)
    h W r j

/-- A [5000, 192] by [192, 1] product into zero, at (r, u). -/
theorem prod_192_1 {φ₁ φ₂ : FTy} (h : FVec Ideal S5000x192 φ₁) (W : FVec Ideal S192x1 φ₂) (r : Fin 5000) (u : Fin 1) :
    FloatOps.matmul dot_S5000x192_S192x1_S5000x1_1_0_0_1_n_n none h W (constant (F := Ideal) S5000x1 .f32 0x00000000#32) (ix2 r u)
      = ∑ k : Fin 192, h (ix2 r k) * W (ix2 k u) :=
  MatmulPlain.matmul_zero_apply dot_S5000x192_S192x1_S5000x1_1_0_0_1_n_n none rfl rfl
    (fun j q => by
      unfold DotDims.lhsIdx
      rw [dif_neg (show ¬(0 : Fin S5000x192.rank) ∈ dot_S5000x192_S192x1_S5000x1_1_0_0_1_n_n.lhsBatch by decide), dif_pos (show (0 : Fin S5000x192.rank) ∈ dot_S5000x192_S192x1_S5000x1_1_0_0_1_n_n.lhsNonContracting by decide)]
      rfl)
    (fun j q => dot_S5000x192_S192x1_S5000x1_1_0_0_1_n_n.lhsIdx_val_of_single rfl j q)
    (fun j q => dot_S5000x192_S192x1_S5000x1_1_0_0_1_n_n.rhsIdx_val_of_single rfl j q)
    (fun j q => by
      unfold DotDims.rhsIdx
      rw [dif_neg (show ¬(1 : Fin S192x1.rank) ∈ dot_S5000x192_S192x1_S5000x1_1_0_0_1_n_n.rhsBatch by decide), dif_pos (show (1 : Fin S192x1.rank) ∈ dot_S5000x192_S192x1_S5000x1_1_0_0_1_n_n.rhsNonContracting by decide)]
      rfl)
    h W r u

/-- The first part of the body (through the second product, before its bias), at (r, j): the second layer's
    weighted sum of the first layer's features of row r. -/
theorem part1_apply (v0 v1 : Vec Ideal S5000x64 .f32) (v5 : Vec Ideal S64x64 .f32) (v8 v12 v14 v20 v26 : Vec Ideal S1x64 .f32)
    (v33 : Vec Ideal S64x64 .f32) (r : Fin 5000) (j : Fin 64) :
    k0_pay2 (F := Ideal) v0 v1 v5 v8 v12 v14 v20 v26 v33 (ix2 r j)
      = ∑ k : Fin 64, hidden1 (fun a => v0 (ix2 r a)) (fun a => v1 (ix2 r a)) (fun a b => v5 (ix2 a b))
          (fun b => v8 (ix2 (0 : Fin 1) b)) (fun b => v12 (ix2 (0 : Fin 1) b)) (fun b => v26 (ix2 (0 : Fin 1) b))
          (fun b => v20 (ix2 (0 : Fin 1) b)) (fun b => v14 (ix2 (0 : Fin 1) b)) k * v33 (ix2 k j) := by
  unfold k0_pay2
  simp only [matmul, addf, subf, mulf, maximumf, truncf, rsqrt, broadcast, shapeCast_self, prod_64_64,
    broadcastTo_1b_ab_apply, Ideal.addf_def, Ideal.subf_def, Ideal.mulf_def, Ideal.maximumf_def, Ideal.truncf_def,
    Ideal.rsqrt_def, Ideal.ofBits_def, hidden1]

/-- The second part of the body, from the second product `p` on, at (r, u): bias and clamp, the third layer, the
    output layer. -/
theorem part2_apply (p : FVec Ideal S5000x64 .f32) (v36 : Vec Ideal S1x64 .f32) (v43 : Vec Ideal S64x192 .f32)
    (v46 : Vec Ideal S1x192 .f32) (v53 : Vec Ideal S192x1 .f32) (v56 : Vec Ideal S1x1 .f32) (r : Fin 5000) (u : Fin 1) :
    k0_pay1 (F := Ideal) p v36 v43 v46 v53 v56 (ix2 r u)
      = head (hidden3 (fun j => max (p (ix2 r j) + v36 (ix2 (0 : Fin 1) j)) (Ideal.ofBits .f32 0x00000000#32))
          (fun a b => v43 (ix2 a b)) (fun b => v46 (ix2 (0 : Fin 1) b))) (fun a => v53 (ix2 a u)) (v56 (ix2 (0 : Fin 1) u)) := by
  unfold k0_pay1
  simp only [matmul, addf, maximumf, truncf, broadcast, shapeCast_self, prod_64_192, prod_192_1,
    broadcastTo_1b_ab_apply, Ideal.addf_def, Ideal.maximumf_def, Ideal.truncf_def, Ideal.ofBits_def, hidden3, head]

/-- ENTRY (r, u) OF THE STORED BLOCK is `mlpRow` of row r of the two row-tiled blocks and of the weight blocks (the
    arguments in the order the body loads them). -/
theorem stored_apply (v0 v1 : Vec Ideal S5000x64 .f32) (v5 : Vec Ideal S64x64 .f32) (v8 v12 v14 v20 v26 : Vec Ideal S1x64 .f32)
    (v33 : Vec Ideal S64x64 .f32) (v36 : Vec Ideal S1x64 .f32) (v43 : Vec Ideal S64x192 .f32)
    (v46 : Vec Ideal S1x192 .f32) (v53 : Vec Ideal S192x1 .f32) (v56 : Vec Ideal S1x1 .f32) (r : Fin 5000) (u : Fin 1) :
    k0_pay1 (F := Ideal) (k0_pay2 (F := Ideal) v0 v1 v5 v8 v12 v14 v20 v26 v33) v36 v43 v46 v53 v56 (ix2 r u)
      = mlpRow (fun a => v0 (ix2 r a)) (fun a => v1 (ix2 r a)) (fun a b => v5 (ix2 a b))
          (fun b => v8 (ix2 (0 : Fin 1) b)) (fun b => v12 (ix2 (0 : Fin 1) b)) (fun b => v26 (ix2 (0 : Fin 1) b))
          (fun b => v20 (ix2 (0 : Fin 1) b)) (fun b => v14 (ix2 (0 : Fin 1) b))
          (fun a b => v33 (ix2 a b)) (fun b => v36 (ix2 (0 : Fin 1) b)) (fun a b => v43 (ix2 a b))
          (fun b => v46 (ix2 (0 : Fin 1) b)) (fun a => v53 (ix2 a u)) (v56 (ix2 (0 : Fin 1) u)) := by
  rw [part2_apply]
  simp only [part1_apply]
  rfl

end Cert.KernelIdeal.Row

end
-- ==== Proof.KernelArray.lean ====
/-
  From the kernel's blocks to its whole result array, on the extended reals.

  Entry (r, u) of what point t writes back is the row function of row r of its two row blocks, which is row
  5000 t + r of the node features and of the aggregated neighbour features, and of the weights, which every point
  stages whole. So each written block is the block of ONE whole-array function `result`; the 20 blocks tile the
  100000 rows (row i is written by point i / 5000), and the array ends holding `result`.
-/
import proofs.«161374_j1967095021811_1_alg».proof.Proof.Gen.KernelIdeal.Frame
import proofs.«161374_j1967095021811_1_alg».proof.Proof.Gen.KernelIdeal.Value
import proofs.«161374_j1967095021811_1_alg».proof.Proof.KernelBlocks
import proofs.«161374_j1967095021811_1_alg».proof.Proof.KernelRow
import proofs.«161374_j1967095021811_1_alg».proof.Proof.SpecArray
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx Cert.GinHead Cert.KernelIdeal.Blocks
open Idealize.ShloMosaic.Pipeline (Dat)

variable (m : (ℓ : Loc nD τ sig) → Buf (Elt Ideal) ℓ) (ρ : Dev nD → PrngReg)

/-! ## The result array -/

/-- What the result array ends holding: the specification's array of the arguments as launched. -/
abbrev result (c : Dev nD) : S100000x1.Idx → Elt Ideal .f32 :=
  outArr (m ((c : Thread nD τ).loc main_arg0) : S100000x64.Idx → Elt Ideal .f32) (Cert.ReferenceIdeal.Read.val_main_v13 (F := Ideal) (m ((c : Thread nD τ).loc main_arg0)) (m ((c : Thread nD τ).loc main_arg1)) : S100000x64.Idx → Elt Ideal .f32)
    (m ((c : Thread nD τ).loc main_arg2) : S64x64.Idx → Elt Ideal .f32) (m ((c : Thread nD τ).loc main_arg3) : S64.Idx → Elt Ideal .f32) (m ((c : Thread nD τ).loc main_arg4) : S64.Idx → Elt Ideal .f32) (m ((c : Thread nD τ).loc main_arg5) : S64.Idx → Elt Ideal .f32)
    (m ((c : Thread nD τ).loc main_arg6) : S64.Idx → Elt Ideal .f32) (m ((c : Thread nD τ).loc main_arg7) : S64.Idx → Elt Ideal .f32) (m ((c : Thread nD τ).loc main_arg8) : S64x64.Idx → Elt Ideal .f32) (m ((c : Thread nD τ).loc main_arg9) : S64.Idx → Elt Ideal .f32)
    (m ((c : Thread nD τ).loc main_arg10) : S64x192.Idx → Elt Ideal .f32) (m ((c : Thread nD τ).loc main_arg11) : S192.Idx → Elt Ideal .f32) (m ((c : Thread nD τ).loc main_arg12) : S192x1.Idx → Elt Ideal .f32) (m ((c : Thread nD τ).loc main_arg13) : S1.Idx → Elt Ideal .f32)

theorem zero_off : (![0, 0] : Fin 2 → Nat) = fun _ => 0 := funext fun a => by fin_cases a <;> rfl

/-- WHAT POINT t WRITES BACK is block t of `result`. -/
theorem flushed_eq (c : Dev nD) (t : Fin cfg0.N) :
    (dats m 0 c).flushed 14 t = ((cfg0.win 14).blk t).view.read (Elt Ideal) (result m c) := by
  rw [Value.flushed14]
  unfold out0_14
  rw [View.canon_unit_zero zero_off]
  simp only [View.ld_unit_zero (S := S5000x64) zero_off, View.ld_unit_zero (S := S64x64) zero_off,
    View.ld_unit_zero (S := S1x64) zero_off, View.ld_unit_zero (S := S64x192) zero_off,
    View.ld_unit_zero (S := S1x192) zero_off, View.ld_unit_zero (S := S192x1) zero_off,
    View.ld_unit_zero (S := S1x1) zero_off]
  refine funext fun (y : S5000x1.Idx) => ?_
  obtain ⟨r, u, rfl⟩ : ∃ (r : Fin 5000) (u : Fin 1), y = ix2 r u := ⟨y 0, y 1, eq_ix2 y⟩
  have ht := point_lt t
  obtain ⟨R, hR⟩ : ∃ R : Fin 100000, R.val = 5000 * t.val + r.val := ⟨⟨5000 * t.val + r.val, by omega⟩, rfl⟩
  rw [View.read_apply, out_emb t r u R hR]
  refine (Row.stored_apply (iblk m c 0 t) (iblk m c 1 t) (iblk m c 2 t) (iblk m c 3 t) (iblk m c 4 t) (iblk m c 7 t) (iblk m c 6 t) (iblk m c 5 t) (iblk m c 8 t)
    (iblk m c 9 t) (iblk m c 10 t) (iblk m c 11 t) (iblk m c 12 t) (iblk m c 13 t) r u).trans ?_
  show _ = outRow (m ((c : Thread nD τ).loc main_arg0) : S100000x64.Idx → Elt Ideal .f32) (Cert.ReferenceIdeal.Read.val_main_v13 (F := Ideal) (m ((c : Thread nD τ).loc main_arg0)) (m ((c : Thread nD τ).loc main_arg1)) : S100000x64.Idx → Elt Ideal .f32)
    (m ((c : Thread nD τ).loc main_arg2) : S64x64.Idx → Elt Ideal .f32) (m ((c : Thread nD τ).loc main_arg3) : S64.Idx → Elt Ideal .f32) (m ((c : Thread nD τ).loc main_arg4) : S64.Idx → Elt Ideal .f32) (m ((c : Thread nD τ).loc main_arg5) : S64.Idx → Elt Ideal .f32)
    (m ((c : Thread nD τ).loc main_arg6) : S64.Idx → Elt Ideal .f32) (m ((c : Thread nD τ).loc main_arg7) : S64.Idx → Elt Ideal .f32) (m ((c : Thread nD τ).loc main_arg8) : S64x64.Idx → Elt Ideal .f32) (m ((c : Thread nD τ).loc main_arg9) : S64.Idx → Elt Ideal .f32)
    (m ((c : Thread nD τ).loc main_arg10) : S64x192.Idx → Elt Ideal .f32) (m ((c : Thread nD τ).loc main_arg11) : S192.Idx → Elt Ideal .f32) (m ((c : Thread nD τ).loc main_arg12) : S192x1.Idx → Elt Ideal .f32) (m ((c : Thread nD τ).loc main_arg13) : S1.Idx → Elt Ideal .f32) R u
  unfold outRow
  simp only [blk0_apply m c t r _ R hR, blk1_apply m c t r _ R hR, blk2_apply m c t, blk3_apply m c t, blk4_apply m c t,
    blk5_apply m c t, blk6_apply m c t, blk7_apply m c t, blk8_apply m c t, blk9_apply m c t, blk10_apply m c t,
    blk11_apply m c t, blk12_apply m c t, blk13_apply m c t]

/-- An index of the result array is in point t's block iff each coordinate is in the block's range on its axis. -/
theorem mem_blk (t : Fin cfg0.N) (i : S100000x1.Idx) :
    i ∈ ((cfg0.win 14).blk t).view.set ↔ ∀ a : Fin 2, win0_14.index t a * S5000x1.size a ≤ (i a).val
      ∧ (i a).val < win0_14.index t a * S5000x1.size a + S5000x1.size a := by
  show i ∈ ((View.whole main_v22).slice (win0_14.rect t)).set ↔ _
  rw [View.set_slice_whole, Rect.mem_set_unit]
  exact Iff.rfl

/-- Every one of the 20 row ranges is some point's. -/
theorem every_block : ∀ q : Fin 20, ∃ t : Fin cfg0.N, win0_14.index t = ![q.val, 0] :=
  (by decide +kernel : ∀ q : Fin 20, ∃ t : Fin grid0.N, win0_14.index t = ![q.val, 0])

/-- Row i of the result is written by the point i / 5000. -/
theorem covered (i : S100000x1.Idx) :
    ∃ t : Fin cfg0.N, (cfg0.win 14).flush t = true ∧ i ∈ ((cfg0.win 14).blk t).view.set := by
  have hi0 : (i 0).val < 100000 := (i 0).isLt
  have hi1 : (i 1).val < 1 := (i 1).isLt
  obtain ⟨t, ht⟩ := every_block ⟨(i 0).val / 5000, by omega⟩
  have q0 : win0_14.index t (0 : Fin 2) = (i 0).val / 5000 := congrFun ht 0
  have q1 : win0_14.index t (1 : Fin 2) = 0 := congrFun ht 1
  refine ⟨t, flush0_14 t, ?_⟩
  rw [mem_blk]
  intro a
  match a with
  | ⟨0, _⟩ =>
    show win0_14.index t (0 : Fin 2) * 5000 ≤ (i 0).val ∧ (i 0).val < win0_14.index t (0 : Fin 2) * 5000 + 5000
    omega
  | ⟨1, _⟩ =>
    show win0_14.index t (1 : Fin 2) * 1 ≤ (i 1).val ∧ (i 1).val < win0_14.index t (1 : Fin 2) * 1 + 1
    omega

/-- THE RESULT ARRAY after the run is `result`. -/
theorem final (c : Dev nD) : (dats m 0 c).arrAt 14 cfg0.N = result m c :=
  (dats m 0 c).arrAt_eq_of_cover 14 (result m c) (fun t _ => flushed_eq m c t) covered

end Cert.KernelIdeal.Arr

end
-- ==== Proof.RefRow.lean ====
/-
  The reference's result read entry by entry on the extended reals.

  Its host operations are read one at a time at an index: each matrix product is the sum over its one contracted
  axis, each bias vector is laid along the rows by two broadcasts and so reads its own entry, the clamps and sums
  act entry by entry. Entry (R, u) therefore depends on the node features only through row R, and is the
  specification's row function of that row, of row R of the aggregated neighbour features (kept as one opaque
  array), and of the weights. The reference multiplies the centred value by the reciprocal root and then by the
  scale, where the specification multiplies by their product: one use of commutativity and associativity of the
  extended reals' product.
-/
import proofs.«161374_j1967095021811_1_alg».proof.Proof.Gen.ReferenceIdeal.Read
import proofs.«161374_j1967095021811_1_alg».proof.Proof.SpecArray

noncomputable section

open scoped BigOperators

namespace Cert.ReferenceIdeal.RefRow

open Cert.ReferenceIdeal Cert.ReferenceIdeal.Read Idealize.ShloMosaic Idealize.ShloMosaic.ValueIdx Cert.GinHead

/-! ## The index functions of the read-at-an-index lemmas, at an index given by its coordinates -/

theorem l15 (R : Fin 100000) (j : Fin 64) (k : Fin 64) : lidx_main_v15 (ix2 R j) k = ix2 R k := funext fun a => Fin.ext (by match a with | ⟨0, _⟩ => rfl | ⟨1, _⟩ => rfl)
theorem r15 (R : Fin 100000) (j : Fin 64) (k : Fin 64) : ridx_main_v15 (ix2 R j) k = ix2 k j := funext fun a => Fin.ext (by match a with | ⟨0, _⟩ => rfl | ⟨1, _⟩ => rfl)
theorem l35 (R : Fin 100000) (j : Fin 64) (k : Fin 64) : lidx_main_v35 (ix2 R j) k = ix2 R k := funext fun a => Fin.ext (by match a with | ⟨0, _⟩ => rfl | ⟨1, _⟩ => rfl)
theorem r35 (R : Fin 100000) (j : Fin 64) (k : Fin 64) : ridx_main_v35 (ix2 R j) k = ix2 k j := funext fun a => Fin.ext (by match a with | ⟨0, _⟩ => rfl | ⟨1, _⟩ => rfl)
theorem l40 (R : Fin 100000) (j : Fin 192) (k : Fin 64) : lidx_main_v40 (ix2 R j) k = ix2 R k := funext fun a => Fin.ext (by match a with | ⟨0, _⟩ => rfl | ⟨1, _⟩ => rfl)
theorem r40 (R : Fin 100000) (j : Fin 192) (k : Fin 64) : ridx_main_v40 (ix2 R j) k = ix2 k j := funext fun a => Fin.ext (by match a with | ⟨0, _⟩ => rfl | ⟨1, _⟩ => rfl)
theorem l45 (R : Fin 100000) (j : Fin 1) (k : Fin 192) : lidx_main_v45 (ix2 R j) k = ix2 R k := funext fun a => Fin.ext (by match a with | ⟨0, _⟩ => rfl | ⟨1, _⟩ => rfl)
theorem r45 (R : Fin 100000) (j : Fin 1) (k : Fin 192) : ridx_main_v45 (ix2 R j) k = ix2 k j := funext fun a => Fin.ext (by match a with | ⟨0, _⟩ => rfl | ⟨1, _⟩ => rfl)

theorem i17 (R : Fin 100000) (j : Fin 64) : idx_main_v17 (ix2 R j) = ix2 (0 : Fin 1) j := funext fun a => Fin.ext (by match a with | ⟨0, _⟩ => rfl | ⟨1, _⟩ => rfl)
theorem i16 (u : Fin 1) (j : Fin 64) : idx_main_v16 (ix2 u j) = ix1 j := funext fun a => Fin.ext (by match a with | ⟨0, _⟩ => rfl)
theorem i20 (R : Fin 100000) (j : Fin 64) : idx_main_v20 (ix2 R j) = ix2 (0 : Fin 1) j := funext fun a => Fin.ext (by match a with | ⟨0, _⟩ => rfl | ⟨1, _⟩ => rfl)
theorem i19 (u : Fin 1) (j : Fin 64) : idx_main_v19 (ix2 u j) = ix1 j := funext fun a => Fin.ext (by match a with | ⟨0, _⟩ => rfl)
theorem i26 (R : Fin 100000) (j : Fin 64) : idx_main_v26 (ix2 R j) = ix2 (0 : Fin 1) j := funext fun a => Fin.ext (by match a with | ⟨0, _⟩ => rfl | ⟨1, _⟩ => rfl)
theorem i25 (u : Fin 1) (j : Fin 64) : idx_main_v25 (ix2 u j) = ix1 j := funext fun a => Fin.ext (by match a with | ⟨0, _⟩ => rfl)
theorem i29 (R : Fin 100000) (j : Fin 64) : idx_main_v29 (ix2 R j) = ix2 (0 : Fin 1) j := funext fun a => Fin.ext (by match a with | ⟨0, _⟩ => rfl | ⟨1, _⟩ => rfl)
theorem i28 (u : Fin 1) (j : Fin 64) : idx_main_v28 (ix2 u j) = ix1 j := funext fun a => Fin.ext (by match a with | ⟨0, _⟩ => rfl)
theorem i32 (R : Fin 100000) (j : Fin 64) : idx_main_v32 (ix2 R j) = ix2 (0 : Fin 1) j := funext fun a => Fin.ext (by match a with | ⟨0, _⟩ => rfl | ⟨1, _⟩ => rfl)
theorem i31 (u : Fin 1) (j : Fin 64) : idx_main_v31 (ix2 u j) = ix1 j := funext fun a => Fin.ext (by match a with | ⟨0, _⟩ => rfl)
theorem i37 (R : Fin 100000) (j : Fin 64) : idx_main_v37 (ix2 R j) = ix2 (0 : Fin 1) j := funext fun a => Fin.ext (by match a with | ⟨0, _⟩ => rfl | ⟨1, _⟩ => rfl)
theorem i36 (u : Fin 1) (j : Fin 64) : idx_main_v36 (ix2 u j) = ix1 j := funext fun a => Fin.ext (by match a with | ⟨0, _⟩ => rfl)
theorem i42 (R : Fin 100000) (j : Fin 192) : idx_main_v42 (ix2 R j) = ix2 (0 : Fin 1) j := funext fun a => Fin.ext (by match a with | ⟨0, _⟩ => rfl | ⟨1, _⟩ => rfl)
theorem i41 (u : Fin 1) (j : Fin 192) : idx_main_v41 (ix2 u j) = ix1 j := funext fun a => Fin.ext (by match a with | ⟨0, _⟩ => rfl)
theorem i47 (R : Fin 100000) (u : Fin 1) : idx_main_v47 (ix2 R u) = ix2 (0 : Fin 1) (0 : Fin 1) := funext fun a => Fin.ext (by match a with | ⟨0, _⟩ => rfl | ⟨1, _⟩ => rfl)
theorem i46 (i : S1x1.Idx) (u : Fin 1) : idx_main_v46 i = ix1 u :=
  funext fun a => Fin.ext (by match a with | ⟨0, _⟩ => show 0 = u.val; omega)

/-! ## The result -/

/-- THE REFERENCE'S RESULT ARRAY is the specification's array of the arguments, with the aggregated neighbour features
    the stage the reference itself computes. -/
theorem result_eq (x0 : (⟨S100000x64, .f32⟩ : BufTy).Contents (Elt Ideal)) (x1 : (⟨S2x3200000, .i32⟩ : BufTy).Contents (Elt Ideal)) (x2 : (⟨S64x64, .f32⟩ : BufTy).Contents (Elt Ideal))
    (x3 x4 x5 x6 x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x192, .f32⟩ : BufTy).Contents (Elt Ideal)) (x11 : (⟨S192, .f32⟩ : BufTy).Contents (Elt Ideal))
    (x12 : (⟨S192x1, .f32⟩ : BufTy).Contents (Elt Ideal)) (x13 : (⟨S1, .f32⟩ : BufTy).Contents (Elt Ideal)) :
    val_main_v48 (F := Ideal) x0 x1 x2 x3 x4 x5 x6 x7 x8 x9 x10 x11 x12 x13
      = outArr x0 (val_main_v13 (F := Ideal) x0 x1) x2 x3 x4 x5 x6 x7 x8 x9 x10 x11 x12 x13 := by
  funext i
  obtain ⟨R, u, rfl⟩ : ∃ (R : Fin 100000) (u : Fin 1), i = ix2 R u := ⟨i 0, i 1, eq_ix2 i⟩
  rw [outArr_ix2]
  simp only [val_main_v48_apply, val_main_v47_apply, val_main_v46_apply, val_main_v45_apply, val_main_v44_apply, val_main_call2_v0_apply, val_main_call2_cst_apply, val_main_v43_apply, val_main_v42_apply, val_main_v41_apply, val_main_v40_apply, val_main_v39_apply, val_main_call1_v0_apply, val_main_call1_cst_apply, val_main_v38_apply, val_main_v37_apply, val_main_v36_apply, val_main_v35_apply, val_main_v34_apply, val_main_call0_v0_apply, val_main_call0_cst_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_cst_1_apply, val_main_v21_apply, val_main_v20_apply, val_main_v19_apply, val_main_v18_apply, val_main_v17_apply, val_main_v16_apply, val_main_v15_apply, val_main_v14_apply,
    l15, r15, l35, r35, l40, r40, l45, r45, i16, i17, i19, i20, i25, i26, i28, i29, i31, i32, i36, i37, i41, i42, i47, i46 _ u,
    Ideal.addf_def, Ideal.subf_def, Ideal.mulf_def, Ideal.maximumf_def, Ideal.hostUnary_rsqrt_def, Ideal.ofBits_def,
    outRow, mlpRow, head, hidden3, hidden2, hidden1, scale_assoc]

end Cert.ReferenceIdeal.RefRow

end
-- ==== Proof.lean ====
/-
  Graph isomorphism layer with a dense head: the kernel against its reference, on the extended reals.

  Both programs first form, on the host and by the same operations, the aggregated neighbour features: the node
  features gathered along the edges' source nodes and summed into the edges' target nodes. Both then add them to the
  node features and apply, node by node, an affine layer 64 -> 64 with a per-feature normalisation and a clamp at
  zero, an affine layer 64 -> 64 with a clamp, an affine layer 64 -> 192 with a clamp, and an affine layer 192 -> 1.
  The kernel does this for 5000 nodes at a time over a grid of 20 points, with every matrix product taken from
  operands rounded to a 16-bit format into a zero accumulator; the reference does it for all 100000 nodes at once.

  On the extended reals a rounding is the identity and a matrix product into zero is the plain sum over the
  contracted axis, so one node's output is the same row function in both (`Cert.GinHead.mlpRow`), of the same row of
  the node features and of the aggregated features and of the same weights. The one difference in spelling is the
  normalisation: the kernel multiplies the centred value by (scale * reciprocal root), the reference multiplies it
  by the reciprocal root and then by the scale; the extended reals' product is commutative and associative at every
  value, infinities included, so the inputs' finiteness is never used.

  Kernel side: the 20 written blocks are the blocks of one whole-array function and tile the result
  (`Cert.KernelIdeal.Arr.final`). Reference side: its composed host operations read entry by entry
  (`Cert.ReferenceIdeal.RefRow.result_eq`). The frames of the two kernel programs are the generated ones; the
  reference's frame is its run with the result forgotten; the idealization rewrote nothing, so `preserves` is `True`.
-/
import proofs.«161374_j1967095021811_1_alg».proof.Defs
import proofs.«161374_j1967095021811_1_alg».proof.Proof.Gen.Kernel
import proofs.«161374_j1967095021811_1_alg».proof.Proof.Gen.Kernel.Skeleton
import proofs.«161374_j1967095021811_1_alg».proof.Proof.Gen.Kernel.Launch
import proofs.«161374_j1967095021811_1_alg».proof.Proof.Gen.Kernel.Points
import proofs.«161374_j1967095021811_1_alg».proof.Proof.Gen.Kernel.Frame
import proofs.«161374_j1967095021811_1_alg».proof.Proof.Gen.KernelIdeal
import proofs.«161374_j1967095021811_1_alg».proof.Proof.Gen.KernelIdeal.Skeleton
import proofs.«161374_j1967095021811_1_alg».proof.Proof.Gen.KernelIdeal.Launch
import proofs.«161374_j1967095021811_1_alg».proof.Proof.Gen.KernelIdeal.Points
import proofs.«161374_j1967095021811_1_alg».proof.Proof.Gen.KernelIdeal.Frame
import proofs.«161374_j1967095021811_1_alg».proof.Proof.Gen.ReferenceIdeal
import proofs.«161374_j1967095021811_1_alg».proof.Proof.Gen.Pre_finite_inputs
import proofs.«161374_j1967095021811_1_alg».proof.Proof.Gen.KernelIdeal.Value
import proofs.«161374_j1967095021811_1_alg».proof.Proof.Gen.ReferenceIdeal.Run
import proofs.«161374_j1967095021811_1_alg».proof.Proof.Gen.ReferenceIdeal.Read
import proofs.«161374_j1967095021811_1_alg».proof.Proof.KernelArray
import proofs.«161374_j1967095021811_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same [100000, 1] array: the specification's
    array of the arguments, the kernel's by the tiling of its 20 blocks, the reference's by reading its operations
    entry by entry. -/
theorem algebraic : Cert.algebraic_KernelIdeal_ReferenceIdeal := by
  intro m ρ m' ρ' _ hagree
  refine ⟨fun c => Cert.KernelIdeal.Arr.result m c, ?_, ?_⟩
  · exact (θ_run Cert.KernelIdeal.defs _ _).mono
      (fun r h c => ⟨(h c).1.trans (Cert.KernelIdeal.Arr.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v48_eq, Cert.ReferenceIdeal.RefRow.result_eq,
      e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
